-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S2048x1024 : Shape := ⟨2, ![2048, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S2048x1024 .f32) (main_arg8 : FVec F S1024 .f32) (main_arg9 : FVec F S2048x1024 .f32) (main_arg10 : FVec F S1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S4096x1024 .f32) (main_arg2 : FVec F S4096x1024 .f32) (main_arg3 : FVec F S2048x1024 .f32) (main_arg4 : FVec F S1024 .f32) (main_arg5 : FVec F S2048x1024 .f32) (main_arg6 : FVec F S1024 .f32) (main_arg7 : FVec F S2048x1024 .f32) (main_arg8 : FVec F S1024 .f32) (main_arg9 : FVec F S2048x1024 .f32) (main_arg10 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S2048x1024 : Shape := ⟨2, ![2048, 1024]⟩
abbrev S1024 : Shape := ⟨1, ![1024]⟩
abbrev S4096x2048 : Shape := ⟨2, ![4096, 2048]⟩
abbrev S2048x4096 : Shape := ⟨2, ![2048, 4096]⟩
abbrev S4096 : Shape := ⟨1, ![4096]⟩
abbrev S1x4096 : Shape := ⟨2, ![1, 4096]⟩
abbrev S256x2048 : Shape := ⟨2, ![256, 2048]⟩
abbrev S256x1024 : Shape := ⟨2, ![256, 1024]⟩
abbrev S1x1024 : Shape := ⟨2, ![1, 1024]⟩

abbrev nBuf : Space → Nat
  | .hbm => 19
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S4096x2048, .f32⟩
  | .hbm, ⟨12, _⟩ => ⟨S4096x2048, .bf16⟩
  | .hbm, ⟨13, _⟩ => ⟨S2048x4096, .f32⟩
  | .hbm, ⟨14, _⟩ => ⟨S2048x4096, .bf16⟩
  | .hbm, ⟨15, _⟩ => ⟨S4096, .f32⟩
  | .hbm, ⟨16, _⟩ => ⟨S1x4096, .f32⟩
  | .hbm, ⟨17, _⟩ => ⟨S4096x1024, .f32⟩
  | .hbm, ⟨18, _⟩ => ⟨S4096x1024, .f32⟩
  | .local _ .vmem, ⟨0, _⟩ => ⟨S256x2048, .bf16⟩
  | .local _ .vmem, ⟨1, _⟩ => ⟨S256x2048, .bf16⟩
  | .local _ .vmem, ⟨2, _⟩ => ⟨S256x1024, .f32⟩
  | .local _ .vmem, ⟨3, _⟩ => ⟨S256x1024, .f32⟩
  | .local _ .vmem, ⟨4, _⟩ => ⟨S2048x4096, .bf16⟩
  | .local _ .vmem, ⟨5, _⟩ => ⟨S1x4096, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S4096x1024_S4096x1024_S4096x2048_d1 : Shape.Concatenates [S4096x1024, S4096x1024] S4096x2048 1
  bitsLt_bf16_f32 : FTy.bits .bf16 < FTy.bits .f32
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  shapeCasts_S4096_S1x4096 : S4096.ShapeCasts S1x4096
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S256x1024_S256x1024_0_0 : ∀ a, (![0, 0] : Fin 2 → Nat) a + S256x1024.size a ≤ S256x1024.size a
  h_S256x1024 : 0 < S256x1024.numel
  inb_S2048x4096_S2048x1024_0_0 : ∀ a, (![0, 0] : Fin 2 → Nat) a + S2048x1024.size a ≤ S2048x4096.size a
  h_S2048x1024 : 0 < S2048x1024.numel
  shapeCasts_S2048x1024_S2048x1024 : S2048x1024.ShapeCasts S2048x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S256x1024 : S1x1024.Broadcasts S256x1024
  inb_S2048x4096_S2048x1024_0_1024 : ∀ a, (![0, 1024] : Fin 2 → Nat) a + S2048x1024.size a ≤ S2048x4096.size a
  inb_S1x4096_S1x1024_0_1024 : ∀ a, (![0, 1024] : Fin 2 → Nat) a + S1x1024.size a ≤ S1x4096.size a
  inb_S2048x4096_S2048x1024_0_2048 : ∀ a, (![0, 2048] : Fin 2 → Nat) a + S2048x1024.size a ≤ S2048x4096.size a
  inb_S1x4096_S1x1024_0_2048 : ∀ a, (![0, 2048] : Fin 2 → Nat) a + S1x1024.size a ≤ S1x4096.size a
  inb_S2048x4096_S2048x1024_0_3072 : ∀ a, (![0, 3072] : Fin 2 → Nat) a + S2048x1024.size a ≤ S2048x4096.size a
  inb_S1x4096_S1x1024_0_3072 : ∀ a, (![0, 3072] : Fin 2 → Nat) a + S1x1024.size a ≤ S1x4096.size a
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .bf16 = 32 ∨ (Rect.block (s := S4096x2048) S256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x4096.size a ≤ S2048x4096.size a
  hwx0_2 : ∀ i : grid0.Coords, EltTy.bits .bf16 = 32 ∨ (Rect.block (s := S2048x4096) S2048x4096.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S4096x1024.size a
  hwx0_4 : ∀ i : grid0.Coords, EltTy.bits .f32 = 32 ∨ (Rect.block (s := S4096x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .f32 = 32 ∨ (Rect.block (s := S4096x1024) S256x1024.size (cc0_transform_5 i) (hinb0_5 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v1) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S2048x1024 : Shape := ⟨2, ![2048, 1024]⟩
abbrev S1024 : Shape := ⟨1, ![1024]⟩
abbrev S4096x2048 : Shape := ⟨2, ![4096, 2048]⟩
abbrev S2048x4096 : Shape := ⟨2, ![2048, 4096]⟩
abbrev S4096 : Shape := ⟨1, ![4096]⟩
abbrev S4096x4096 : Shape := ⟨2, ![4096, 4096]⟩
abbrev S1x4096 : Shape := ⟨2, ![1, 4096]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S1024, .f32⟩
  | .hbm, ⟨7, _⟩ => ⟨S2048x1024, .f32⟩
  | .hbm, ⟨8, _⟩ => ⟨S1024, .f32⟩
  | .hbm, ⟨9, _⟩ => ⟨S2048x1024, .f32⟩
  | .hbm, ⟨10, _⟩ => ⟨S1024, .f32⟩
  | .hbm, ⟨11, _⟩ => ⟨S4096x2048, .f32⟩
  | .hbm, ⟨12, _⟩ => ⟨S2048x4096, .f32⟩
  | .hbm, ⟨13, _⟩ => ⟨S4096, .f32⟩
  | .hbm, ⟨14, _⟩ => ⟨S4096x4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩

abbrev nD : Nat := 1
abbrev τ : Topo := Topo.v7x

variable {F : FTy → Type} [FloatOps F]

class Facts₀ : Prop where
  concatenates_S4096x1024_S4096x1024_S4096x2048_d1 : Shape.Concatenates [S4096x1024, S4096x1024] S4096x2048 1
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x2048_S2048x4096_S4096x4096_1_0_0_1_n_n_wf : DotDims.WF S4096x2048 S2048x4096 S4096x4096 [1] [0] [0] [1] [] []

variable [Facts₀]

def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.KernelRegion.lean ====
/-
  The launch of the LSTM cell's one pallas_call, read as a frame: the six host lines before it (two joins of
  columns, one join of vectors, two changes of float format, one reshape) leave every argument array as it was;
  at each of the sixteen row tiles the body reads its four input blocks — 256 rows of [x | h_prev], the same 256
  rows of c_prev, and the whole weight matrix and bias row, which stay resident — and overwrites both output tiles
  whole, so what each output tile holds afterwards is one function of the four blocks (`hiddenTile`, `cellTile`).
  Stated for any float instance `F`: nothing here looks inside the arithmetic.
-/
import proofs.«156035_j47596827574335_2_alg».proof.Proof.Gen.Kernel.Launch
import proofs.«156035_j47596827574335_2_alg».proof.Proof.Gen.Kernel.Skeleton
import proofs.«156035_j47596827574335_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- What core `c`'s buffers hold when the launch begins: the start contents after the six host lines. -/
abbrev entry (c : Dev nD) (b : Ref sig .tc) : Buf (Elt F) ((c : Thread nD τ).loc b) := StableHlo.after hostOps0 (fun b => m (c, b)) b

/-- None of the six host lines allocates a buffer. -/
theorem hostOps0_fresh : (hostOps0 : List (HloOp τ sig (Elt F))).Forall fun op => op.fresh = ∅ := by
  simp only [List.Forall]; repeat' constructor

/-- The program is the six host lines and then the launch, which therefore starts from `entry`. -/
theorem main_to_launch (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host line before the launch writes argument 0: the launch finds it as the program was started. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host line before the launch writes argument 1: the launch finds it as the program was started. -/
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host line before the launch writes argument 2: the launch finds it as the program was started. -/
theorem entry_main_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host line before the launch writes argument 3: the launch finds it as the program was started. -/
theorem entry_main_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host line before the launch writes argument 4: the launch finds it as the program was started. -/
theorem entry_main_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host line before the launch writes argument 5: the launch finds it as the program was started. -/
theorem entry_main_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host line before the launch writes argument 6: the launch finds it as the program was started. -/
theorem entry_main_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host line before the launch writes argument 7: the launch finds it as the program was started. -/
theorem entry_main_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host line before the launch writes argument 8: the launch finds it as the program was started. -/
theorem entry_main_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host line before the launch writes argument 9: the launch finds it as the program was started. -/
theorem entry_main_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host line before the launch writes argument 10: the launch finds it as the program was started. -/
theorem entry_main_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at row tile `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its block at every tile, whether the block was fetched there
    or is still the resident one (its block index has not moved), for any proof data whose arrays are `entry`'s
    and whose body leaves the block in place. -/
theorem staged0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## From the launch's run to the frame -/

/-- For any proof data whose arrays are `entry`'s, a run that ends with every window's array at what the proof
    data says and every other buffer as the launch found it leaves the eleven argument arrays as the program was
    started: c_prev is an input window's array, which no tile writes back; the other ten are staged by no window. -/
theorem frame_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (entry_main_arg0 m c),
      ((h c).2 main_arg1 (Pipeline.mem_restRefs_of main_arg1 (by decide) (by decide))).trans (entry_main_arg1 m c),
      ((h c).1 1).trans (((dats 0 c).arrAt_in 1 rfl _).trans ((hA c 1).trans (entry_main_arg2 m c))),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c)⟩) h

/-! ## The rectangles the body reads and writes -/

/-- All of a [256, 2048] tile of [x | h_prev]. -/
abbrev rowsXH : Rect S256x2048 := Rect.unit (s := S256x2048) ![0, 0] S256x2048.size inb_S256x2048_S256x2048_0_0
/-- All of a [256, 1024] tile. -/
abbrev tile : Rect S256x1024 := Rect.unit (s := S256x1024) ![0, 0] S256x1024.size inb_S256x1024_S256x1024_0_0
/-- The four gates' columns of the weight matrix: forget, input, candidate, output. -/
abbrev colsF : Rect S2048x4096 := Rect.unit (s := S2048x4096) ![0, 0] S2048x1024.size inb_S2048x4096_S2048x1024_0_0
abbrev colsI : Rect S2048x4096 := Rect.unit (s := S2048x4096) ![0, 1024] S2048x1024.size inb_S2048x4096_S2048x1024_0_1024
abbrev colsG : Rect S2048x4096 := Rect.unit (s := S2048x4096) ![0, 2048] S2048x1024.size inb_S2048x4096_S2048x1024_0_2048
abbrev colsO : Rect S2048x4096 := Rect.unit (s := S2048x4096) ![0, 3072] S2048x1024.size inb_S2048x4096_S2048x1024_0_3072
/-- The four gates' stretches of the bias row. -/
abbrev biasF : Rect S1x4096 := Rect.unit (s := S1x4096) ![0, 0] S1x1024.size inb_S1x4096_S1x1024_0_0
abbrev biasI : Rect S1x4096 := Rect.unit (s := S1x4096) ![0, 1024] S1x1024.size inb_S1x4096_S1x1024_0_1024
abbrev biasG : Rect S1x4096 := Rect.unit (s := S1x4096) ![0, 2048] S1x1024.size inb_S1x4096_S1x1024_0_2048
abbrev biasO : Rect S1x4096 := Rect.unit (s := S1x4096) ![0, 3072] S1x1024.size inb_S1x4096_S1x1024_0_3072

/-! ## What the body leaves in the two output tiles -/

/-- The new cell state's tile, from the four input blocks: forget gate times old cell state plus input gate times candidate. -/
def cellTile (xh : Vec F S256x2048 .bf16) (cp : Vec F S256x1024 .f32) (w : Vec F S2048x4096 .bf16) (b : Vec F S1x4096 .f32) : Vec F S256x1024 .f32 :=
  View.canon [⟨tile, k0_pay1 (View.ld cp tile) (k0_pay4 (View.ld xh rowsXH) (View.ld w colsF) (View.ld b biasF))
    (k0_pay5 (View.ld xh rowsXH) (View.ld w colsI) (View.ld b biasI)) (k0_pay6 (View.ld xh rowsXH) (View.ld w colsG) (View.ld b biasG))⟩]

/-- The new hidden state's tile: output gate times tanh of the new cell state. -/
def hiddenTile (xh : Vec F S256x2048 .bf16) (cp : Vec F S256x1024 .f32) (w : Vec F S2048x4096 .bf16) (b : Vec F S1x4096 .f32) : Vec F S256x1024 .f32 :=
  View.canon [⟨tile, k0_pay2 (View.ld cp tile) (k0_pay4 (View.ld xh rowsXH) (View.ld w colsF) (View.ld b biasF))
    (k0_pay5 (View.ld xh rowsXH) (View.ld w colsI) (View.ld b biasI)) (k0_pay6 (View.ld xh rowsXH) (View.ld w colsG) (View.ld b biasG))
    (k0_pay7 (View.ld xh rowsXH) (View.ld w colsO) (View.ld b biasO))⟩]

/-- One store of a whole tile covers the tile. -/
theorem tile_covered (p0 : Vec F S256x1024 .f32) (y : S256x1024.Idx) :
    ∃ pc ∈ ([⟨tile, p0⟩] : List (View.Piece (Elt F) S256x1024 .f32)), y ∈ pc.1.set :=
  View.cover_of_tiled [⟨tile, p0⟩] S256x1024.size (by rfl) y

/-! ## The body's triple -/

set_option maxHeartbeats 1000000 in
/-- The body on whole staging buffers — the four inputs' at known contents, the two outputs' at anything — runs to
    the end with the inputs' as they were and the outputs' at `hiddenTile` and `cellTile` of the inputs'. -/
theorem body_triple (c : Dev nD) (E : Set ℕ) (i : grid0.Coords)
    (arg1 : Memref sig .tc .vmem S256x2048 .bf16) (harg1 : arg1.IsWhole) (arg2 : Memref sig .tc .vmem S256x1024 .f32) (harg2 : arg2.IsWhole)
    (arg3 : Memref sig .tc .vmem S2048x4096 .bf16) (harg3 : arg3.IsWhole) (arg4 : Memref sig .tc .vmem S1x4096 .f32) (harg4 : arg4.IsWhole)
    (arg5 : Memref sig .tc .vmem S256x1024 .f32) (harg5 : arg5.IsWhole) (arg6 : Memref sig .tc .vmem S256x1024 .f32) (harg6 : arg6.IsWhole)
    (xh : Vec F S256x2048 .bf16) (cp : Vec F S256x1024 .f32) (w : Vec F S2048x4096 .bf16) (b : Vec F S1x4096 .f32) (K : PUnit → sProp 𝕄) :
    iprop(owns (c : Thread nD τ) arg1 fullShare xh ∗ owns (c : Thread nD τ) arg2 fullShare cp ∗ owns (c : Thread nD τ) arg3 fullShare w ∗ owns (c : Thread nD τ) arg4 fullShare b
        ∗ (∃ d, owns (c : Thread nD τ) arg5 fullShare d) ∗ (∃ d, owns (c : Thread nD τ) arg6 fullShare d)
        ∗ (iprop(owns (c : Thread nD τ) arg1 fullShare xh ∗ owns (c : Thread nD τ) arg2 fullShare cp ∗ owns (c : Thread nD τ) arg3 fullShare w ∗ owns (c : Thread nD τ) arg4 fullShare b
            ∗ owns (c : Thread nD τ) arg5 fullShare (hiddenTile xh cp w b) ∗ owns (c : Thread nD τ) arg6 fullShare (cellTile xh cp w b)) -∗ K ⟨⟩))
      ⊢ wp frame (wpE (defs₀ (F := F)) Variants.none c none) E (cc0__lstm_kernel i arg1 harg1 arg2 harg2 arg3 harg3 arg4 harg4 arg5 harg5 arg6 harg6) K := by
  simp only [cc0__lstm_kernel_eq_skeleton]; unfold cc0__lstm_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (tile_covered _)
  iexists _; isplitr
  swap; · iexact H6
  ipureintro
  try dsimp only
  exact View.read_writes_eq_canon _ _ _ (tile_covered _)

/-! ## The launch's proof data -/

/-- On core `c`: the arrays as the launch finds them; after the body at tile `t` each input's buffer at its block
    and each output's at its tile function of the four blocks; nothing else is held or owed. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => hiddenTile (blockAt m c 0 t) (blockAt m c 1 t) (blockAt m c 2 t) (blockAt m c 3 t)
    | ⟨5, _⟩ => cellTile (blockAt m c 0 t) (blockAt m c 1 t) (blockAt m c 2 t) (blockAt m c 3 t)
  Φ _ := Pipeline.ΦA spec0 c
  q _ := fullShare
  owed _ := 0

theorem arrays_eq (c : Dev nD) (w : Fin cfg0.W) : (dats m 0 c).A w = entry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = hiddenTile (blockAt m c 0 t) (blockAt m c 1 t) (blockAt m c 2 t) (blockAt m c 3 t) := by dsimp only [dats]
theorem after5 (c : Dev nD) (t : Fin cfg0.N) : (dats m 0 c).after 5 t = cellTile (blockAt m c 0 t) (blockAt m c 1 t) (blockAt m c 2 t) (blockAt m c 3 t) := by dsimp only [dats]

theorem staged0 (c : Dev nD) (t : Fin cfg0.N) (d) : (dats m 0 c).before 0 t d = blockAt m c 0 t :=
  staged0_of m (dats m 0 c) (arrays_eq m c 0) (after0 m c) t d
theorem staged1 (c : Dev nD) (t : Fin cfg0.N) (d) : (dats m 0 c).before 1 t d = blockAt m c 1 t :=
  staged1_of m (dats m 0 c) (arrays_eq m c 1) (after1 m c) t d
theorem staged2 (c : Dev nD) (t : Fin cfg0.N) (d) : (dats m 0 c).before 2 t d = blockAt m c 2 t :=
  staged2_of m (dats m 0 c) (arrays_eq m c 2) (after2 m c) t d
theorem staged3 (c : Dev nD) (t : Fin cfg0.N) (d) : (dats m 0 c).before 3 t d = blockAt m c 3 t :=
  staged3_of m (dats m 0 c) (arrays_eq m c 3) (after3 m c) t d

/-! ## The body at a tile -/

/-- What the body is handed at tile `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- At any tile the inputs' buffers hold their blocks, so the body's triple applies; the rest passes through unread. -/
theorem body_at_tile (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact body_at_tile m c t

/-! ## The run and the frame -/

set_option backward.isDefEq.respectTransparency.types false in
/-- From any memory with zero counters every weakly fair execution of the program ends, with every window's array at
    what the proof data computes and every other buffer as the launch found it. -/
theorem run_launch : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_to_launch m Variants.none) (hA := arrays_eq m) (hΦ := fun _ _ => rfl)

/-- The program ends, faults nowhere, and leaves its eleven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (arrays_eq m) (run_launch m ρ)

end Cert.Kernel.Region

end
-- ==== Proof.KernelIdealRegion.lean ====
/-
  The launch of the LSTM cell's one pallas_call, read as a frame: the six host lines before it (two joins of
  columns, one join of vectors, two changes of float format, one reshape) leave every argument array as it was;
  at each of the sixteen row tiles the body reads its four input blocks — 256 rows of [x | h_prev], the same 256
  rows of c_prev, and the whole weight matrix and bias row, which stay resident — and overwrites both output tiles
  whole, so what each output tile holds afterwards is one function of the four blocks (`hiddenTile`, `cellTile`).
  Stated for any float instance `F`: nothing here looks inside the arithmetic.
-/
import proofs.«156035_j47596827574335_2_alg».proof.Proof.Gen.KernelIdeal.Launch
import proofs.«156035_j47596827574335_2_alg».proof.Proof.Gen.KernelIdeal.Skeleton
import proofs.«156035_j47596827574335_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- What core `c`'s buffers hold when the launch begins: the start contents after the six host lines. -/
abbrev entry (c : Dev nD) (b : Ref sig .tc) : Buf (Elt F) ((c : Thread nD τ).loc b) := StableHlo.after hostOps0 (fun b => m (c, b)) b

/-- None of the six host lines allocates a buffer. -/
theorem hostOps0_fresh : (hostOps0 : List (HloOp τ sig (Elt F))).Forall fun op => op.fresh = ∅ := by
  simp only [List.Forall]; repeat' constructor

/-- The program is the six host lines and then the launch, which therefore starts from `entry`. -/
theorem main_to_launch (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host line before the launch writes argument 0: the launch finds it as the program was started. -/
theorem entry_main_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host line before the launch writes argument 1: the launch finds it as the program was started. -/
theorem entry_main_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host line before the launch writes argument 2: the launch finds it as the program was started. -/
theorem entry_main_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host line before the launch writes argument 3: the launch finds it as the program was started. -/
theorem entry_main_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host line before the launch writes argument 4: the launch finds it as the program was started. -/
theorem entry_main_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host line before the launch writes argument 5: the launch finds it as the program was started. -/
theorem entry_main_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host line before the launch writes argument 6: the launch finds it as the program was started. -/
theorem entry_main_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host line before the launch writes argument 7: the launch finds it as the program was started. -/
theorem entry_main_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host line before the launch writes argument 8: the launch finds it as the program was started. -/
theorem entry_main_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host line before the launch writes argument 9: the launch finds it as the program was started. -/
theorem entry_main_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))
/-- No host line before the launch writes argument 10: the launch finds it as the program was started. -/
theorem entry_main_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at row tile `t`, read off its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's current staging buffer holds its block at every tile, whether the block was fetched there
    or is still the resident one (its block index has not moved), for any proof data whose arrays are `entry`'s
    and whose body leaves the block in place. -/
theorem staged0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)

/-! ## From the launch's run to the frame -/

/-- For any proof data whose arrays are `entry`'s, a run that ends with every window's array at what the proof
    data says and every other buffer as the launch found it leaves the eleven argument arrays as the program was
    started: c_prev is an input window's array, which no tile writes back; the other ten are staged by no window. -/
theorem frame_of (dats : (p : Fin 1) → (c : Dev nD) → Dat τ (Elt F) Unit ℕ (UR sig nD τ) ℕ (cfgs p) c)
    (hA : ∀ c w, (dats 0 c).A w = entry m c (Pipeline.arrRef spec0 w))
    (h : θ_run defs (onTc (τ := τ) (main (F := F))) (s₀ m ρ) (Pipeline.FramePost cfgs dats 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨((h c).2 main_arg0 (Pipeline.mem_restRefs_of main_arg0 (by decide) (by decide))).trans (entry_main_arg0 m c),
      ((h c).2 main_arg1 (Pipeline.mem_restRefs_of main_arg1 (by decide) (by decide))).trans (entry_main_arg1 m c),
      ((h c).1 1).trans (((dats 0 c).arrAt_in 1 rfl _).trans ((hA c 1).trans (entry_main_arg2 m c))),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c)⟩) h

/-! ## The rectangles the body reads and writes -/

/-- All of a [256, 2048] tile of [x | h_prev]. -/
abbrev rowsXH : Rect S256x2048 := Rect.unit (s := S256x2048) ![0, 0] S256x2048.size inb_S256x2048_S256x2048_0_0
/-- All of a [256, 1024] tile. -/
abbrev tile : Rect S256x1024 := Rect.unit (s := S256x1024) ![0, 0] S256x1024.size inb_S256x1024_S256x1024_0_0
/-- The four gates' columns of the weight matrix: forget, input, candidate, output. -/
abbrev colsF : Rect S2048x4096 := Rect.unit (s := S2048x4096) ![0, 0] S2048x1024.size inb_S2048x4096_S2048x1024_0_0
abbrev colsI : Rect S2048x4096 := Rect.unit (s := S2048x4096) ![0, 1024] S2048x1024.size inb_S2048x4096_S2048x1024_0_1024
abbrev colsG : Rect S2048x4096 := Rect.unit (s := S2048x4096) ![0, 2048] S2048x1024.size inb_S2048x4096_S2048x1024_0_2048
abbrev colsO : Rect S2048x4096 := Rect.unit (s := S2048x4096) ![0, 3072] S2048x1024.size inb_S2048x4096_S2048x1024_0_3072
/-- The four gates' stretches of the bias row. -/
abbrev biasF : Rect S1x4096 := Rect.unit (s := S1x4096) ![0, 0] S1x1024.size inb_S1x4096_S1x1024_0_0
abbrev biasI : Rect S1x4096 := Rect.unit (s := S1x4096) ![0, 1024] S1x1024.size inb_S1x4096_S1x1024_0_1024
abbrev biasG : Rect S1x4096 := Rect.unit (s := S1x4096) ![0, 2048] S1x1024.size inb_S1x4096_S1x1024_0_2048
abbrev biasO : Rect S1x4096 := Rect.unit (s := S1x4096) ![0, 3072] S1x1024.size inb_S1x4096_S1x1024_0_3072

/-! ## What the body leaves in the two output tiles -/

/-- The new cell state's tile, from the four input blocks: forget gate times old cell state plus input gate times candidate. -/
def cellTile (xh : Vec F S256x2048 .bf16) (cp : Vec F S256x1024 .f32) (w : Vec F S2048x4096 .bf16) (b : Vec F S1x4096 .f32) : Vec F S256x1024 .f32 :=
  View.canon [⟨tile, k0_pay1 (View.ld cp tile) (k0_pay4 (View.ld xh rowsXH) (View.ld w colsF) (View.ld b biasF))
    (k0_pay5 (View.ld xh rowsXH) (View.ld w colsI) (View.ld b biasI)) (k0_pay6 (View.ld xh rowsXH) (View.ld w colsG) (View.ld b biasG))⟩]

/-- The new hidden state's tile: output gate times tanh of the new cell state. -/
def hiddenTile (xh : Vec F S256x2048 .bf16) (cp : Vec F S256x1024 .f32) (w : Vec F S2048x4096 .bf16) (b : Vec F S1x4096 .f32) : Vec F S256x1024 .f32 :=
  View.canon [⟨tile, k0_pay2 (View.ld cp tile) (k0_pay4 (View.ld xh rowsXH) (View.ld w colsF) (View.ld b biasF))
    (k0_pay5 (View.ld xh rowsXH) (View.ld w colsI) (View.ld b biasI)) (k0_pay6 (View.ld xh rowsXH) (View.ld w colsG) (View.ld b biasG))
    (k0_pay7 (View.ld xh rowsXH) (View.ld w colsO) (View.ld b biasO))⟩]

/-- One store of a whole tile covers the tile. -/
theorem tile_covered (p0 : Vec F S256x1024 .f32) (y : S256x1024.Idx) :
    ∃ pc ∈ ([⟨tile, p0⟩] : List (View.Piece (Elt F) S256x1024 .f32)), y ∈ pc.1.set :=
  View.cover_of_tiled [⟨tile, p0⟩] S256x1024.size (by rfl) y

/-! ## The body's triple -/

set_option maxHeartbeats 1000000 in
/-- The body on whole staging buffers — the four inputs' at known contents, the two outputs' at anything — runs to
    the end with the inputs' as they were and the outputs' at `hiddenTile` and `cellTile` of the inputs'. -/
theorem body_triple (c : Dev nD) (E : Set ℕ) (i : grid0.Coords)
    (arg1 : Memref sig .tc .vmem S256x2048 .bf16) (harg1 : arg1.IsWhole) (arg2 : Memref sig .tc .vmem S256x1024 .f32) (harg2 : arg2.IsWhole)
    (arg3 : Memref sig .tc .vmem S2048x4096 .bf16) (harg3 : arg3.IsWhole) (arg4 : Memref sig .tc .vmem S1x4096 .f32) (harg4 : arg4.IsWhole)
    (arg5 : Memref sig .tc .vmem S256x1024 .f32) (harg5 : arg5.IsWhole) (arg6 : Memref sig .tc .vmem S256x1024 .f32) (harg6 : arg6.IsWhole)
    (xh : Vec F S256x2048 .bf16) (cp : Vec F S256x1024 .f32) (w : Vec F S2048x4096 .bf16) (b : Vec F S1x4096 .f32) (K : PUnit → sProp 𝕄) :
    iprop(owns (c : Thread nD τ) arg1 fullShare xh ∗ owns (c : Thread nD τ) arg2 fullShare cp ∗ owns (c : Thread nD τ) arg3 fullShare w ∗ owns (c : Thread nD τ) arg4 fullShare b
        ∗ (∃ d, owns (c : Thread nD τ) arg5 fullShare d) ∗ (∃ d, owns (c : Thread nD τ) arg6 fullShare d)
        ∗ (iprop(owns (c : Thread nD τ) arg1 fullShare xh ∗ owns (c : Thread nD τ) arg2 fullShare cp ∗ owns (c : Thread nD τ) arg3 fullShare w ∗ owns (c : Thread nD τ) arg4 fullShare b
            ∗ owns (c : Thread nD τ) arg5 fullShare (hiddenTile xh cp w b) ∗ owns (c : Thread nD τ) arg6 fullShare (cellTile xh cp w b)) -∗ K ⟨⟩))
      ⊢ wp frame (wpE (defs₀ (F := F)) Variants.none c none) E (cc0__lstm_kernel i arg1 harg1 arg2 harg2 arg3 harg3 arg4 harg4 arg5 harg5 arg6 harg6) K := by
  simp only [cc0__lstm_kernel_eq_skeleton]; unfold cc0__lstm_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try dsimp only
    exact View.read_writes_eq_canon _ _ _ (tile_covered _)
  iexists _; isplitr
  swap; · iexact H6
  ipureintro
  try dsimp only
  exact View.read_writes_eq_canon _ _ _ (tile_covered _)

/-! ## The launch's proof data -/

/-- On core `c`: the arrays as the launch finds them; after the body at tile `t` each input's buffer at its block
    and each output's at its tile function of the four blocks; nothing else is held or owed. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => hiddenTile (blockAt m c 0 t) (blockAt m c 1 t) (blockAt m c 2 t) (blockAt m c 3 t)
    | ⟨5, _⟩ => cellTile (blockAt m c 0 t) (blockAt m c 1 t) (blockAt m c 2 t) (blockAt m c 3 t)
  Φ _ := Pipeline.ΦA spec0 c
  q _ := fullShare
  owed _ := 0

theorem arrays_eq (c : Dev nD) (w : Fin cfg0.W) : (dats m 0 c).A w = entry m c (Pipeline.arrRef spec0 w) := by
  dsimp only [dats]

theorem after0 (c : Dev nD) (t : Fin cfg0.N) : (dats m 0 c).after 0 t = blockAt m c 0 t := by dsimp only [dats]
theorem after1 (c : Dev nD) (t : Fin cfg0.N) : (dats m 0 c).after 1 t = blockAt m c 1 t := by dsimp only [dats]
theorem after2 (c : Dev nD) (t : Fin cfg0.N) : (dats m 0 c).after 2 t = blockAt m c 2 t := by dsimp only [dats]
theorem after3 (c : Dev nD) (t : Fin cfg0.N) : (dats m 0 c).after 3 t = blockAt m c 3 t := by dsimp only [dats]
theorem after4 (c : Dev nD) (t : Fin cfg0.N) : (dats m 0 c).after 4 t = hiddenTile (blockAt m c 0 t) (blockAt m c 1 t) (blockAt m c 2 t) (blockAt m c 3 t) := by dsimp only [dats]
theorem after5 (c : Dev nD) (t : Fin cfg0.N) : (dats m 0 c).after 5 t = cellTile (blockAt m c 0 t) (blockAt m c 1 t) (blockAt m c 2 t) (blockAt m c 3 t) := by dsimp only [dats]

theorem staged0 (c : Dev nD) (t : Fin cfg0.N) (d) : (dats m 0 c).before 0 t d = blockAt m c 0 t :=
  staged0_of m (dats m 0 c) (arrays_eq m c 0) (after0 m c) t d
theorem staged1 (c : Dev nD) (t : Fin cfg0.N) (d) : (dats m 0 c).before 1 t d = blockAt m c 1 t :=
  staged1_of m (dats m 0 c) (arrays_eq m c 1) (after1 m c) t d
theorem staged2 (c : Dev nD) (t : Fin cfg0.N) (d) : (dats m 0 c).before 2 t d = blockAt m c 2 t :=
  staged2_of m (dats m 0 c) (arrays_eq m c 2) (after2 m c) t d
theorem staged3 (c : Dev nD) (t : Fin cfg0.N) (d) : (dats m 0 c).before 3 t d = blockAt m c 3 t :=
  staged3_of m (dats m 0 c) (arrays_eq m c 3) (after3 m c) t d

/-! ## The body at a tile -/

/-- What the body is handed at tile `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- At any tile the inputs' buffers hold their blocks, so the body's triple applies; the rest passes through unread. -/
theorem body_at_tile (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3]
  rw [show (dats m 0 c).Φ t.succ = (dats m 0 c).Φ t.castSucc from rfl,
    show (dats m 0 c).owesAt () t.succ = (dats m 0 c).owesAt () t.castSucc from rfl,
    after0, after1, after2, after3, after4, after5]
  iintro ⟨HΦ, Ho, ⟨%d0, H0⟩, ⟨%d1, H1⟩, ⟨%d2, H2⟩, ⟨%d3, H3⟩, ⟨%d4, H4⟩, ⟨%d5, H5⟩⟩
  iapply (body_triple c Set.univ _ _ _ _ _ _ _ _ _ _ _ _ _ (blockAt m c 0 t) (blockAt m c 1 t) (blockAt m c 2 t) (blockAt m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact body_at_tile m c t

/-! ## The run and the frame -/

set_option backward.isDefEq.respectTransparency.types false in
/-- From any memory with zero counters every weakly fair execution of the program ends, with every window's array at
    what the proof data computes and every other buffer as the launch found it. -/
theorem run_launch : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_to_launch m Variants.none) (hA := arrays_eq m) (hΦ := fun _ _ => rfl)

/-- The program ends, faults nowhere, and leaves its eleven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (arrays_eq m) (run_launch m ρ)

end Cert.KernelIdeal.Region

end
-- ==== Proof.CellSpec.lean ====
/-
  One step of an LSTM cell, as a function on the extended reals.

  The four gates share one matrix product: row `r` of [x | h_prev] (2048 entries) against the 4096 fused columns of
  [W_f | W_i | W_g | W_o], plus the fused bias, gives 4096 logits; column `j` of gate number `g` is fused column
  `1024·g + j`. From the logits of one row and the old cell state at (r, j):
      c' = σ(z_f) · c + σ(z_i) · tanh(z_g),      h' = σ(z_o) · tanh(c'),
  with σ the logistic function 1 / (1 + e^(-z)).
-/
import Idealize.ShloMosaic.PureOps.Ideal
import Idealize.ShloMosaic.Lib.ValueIdx

noncomputable section

namespace Cert.CellSpec

open Idealize.ShloMosaic Idealize.ShloMosaic.ValueIdx

/-- An `a × b` matrix of extended reals, and a vector of them. -/
abbrev Mat (a b : Nat) : Type := (⟨2, ![a, b]⟩ : Shape).Idx → EReal
abbrev Row (a : Nat) : Type := (⟨1, ![a]⟩ : Shape).Idx → EReal

/-- The fused column of each gate's column `j`: forget, input, candidate, output. -/
abbrev colF (j : Fin 1024) : Fin 4096 := ⟨j.val, by omega⟩
abbrev colI (j : Fin 1024) : Fin 4096 := ⟨1024 + j.val, by omega⟩
abbrev colG (j : Fin 1024) : Fin 4096 := ⟨2048 + j.val, by omega⟩
abbrev colO (j : Fin 1024) : Fin 4096 := ⟨3072 + j.val, by omega⟩

/-- Row `r` of `X` against fused column `n` of `W`. -/
def dotCol {R : Nat} (X : Mat R 2048) (W : Mat 2048 4096) (r : Fin R) (n : Fin 4096) : EReal :=
  ∑ k : Fin 2048, X (ix2 r k) * W (ix2 k n)

/-- The new cell state at column `j`, from one row's 4096 logits `z` and the old cell state there. -/
def cellOf (z : Fin 4096 → EReal) (cprev : EReal) (j : Fin 1024) : EReal :=
  Ideal.logistic (z (colF j)) * cprev + Ideal.logistic (z (colI j)) * Ideal.tanh (z (colG j))

/-- The new hidden state at column `j`. -/
def hiddenOf (z : Fin 4096 → EReal) (cprev : EReal) (j : Fin 1024) : EReal :=
  Ideal.logistic (z (colO j)) * Ideal.tanh (cellOf z cprev j)

/-- Row `r`'s logits: the product with the fused weights plus the fused bias. -/
def logits (XH : Mat 4096 2048) (W : Mat 2048 4096) (Bv : Row 4096) (r : Fin 4096) : Fin 4096 → EReal :=
  fun n => dotCol XH W r n + Bv (ix1 n)

/-- The whole new cell state and the whole new hidden state. -/
def cellArr (XH : Mat 4096 2048) (W : Mat 2048 4096) (Bv : Row 4096) (Cp : Mat 4096 1024) : Mat 4096 1024 :=
  fun i => cellOf (logits XH W Bv ⟨(i 0).val, idx2_lt0 i⟩) (Cp i) ⟨(i 1).val, idx2_lt1 i⟩
def hiddenArr (XH : Mat 4096 2048) (W : Mat 2048 4096) (Bv : Row 4096) (Cp : Mat 4096 1024) : Mat 4096 1024 :=
  fun i => hiddenOf (logits XH W Bv ⟨(i 0).val, idx2_lt0 i⟩) (Cp i) ⟨(i 1).val, idx2_lt1 i⟩

end Cert.CellSpec

end
-- ==== Proof.KernelTile.lean ====
/-
  The two output tiles of the cell kernel's body, read at an index of the tile: for the four input blocks — 256 rows
  of [x | h_prev], the same rows of the old cell state, the fused weights and the fused bias row — entry (p, q) of
  the new cell state's tile and of the new hidden state's tile are the cell's two formulas of row `p`'s logits,
  each logit the row's product with one fused column of the weights plus that column's bias.
-/
import proofs.«156035_j47596827574335_2_alg».proof.Proof.KernelIdealRegion
import proofs.«156035_j47596827574335_2_alg».proof.Proof.CellSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tile

open Cert.KernelIdeal Cert.KernelIdeal.Gen Cert.KernelIdeal.Region Cert.CellSpec
open Idealize.ShloMosaic Idealize.ShloMosaic.ValueIdx

/-- One gate's logits on a tile: the 256 rows against the gate's 1024 columns, plus the gate's bias row. -/
def preact (xh : FVec Ideal S256x2048 .bf16) (wg : FVec Ideal S2048x1024 .bf16) (bg : FVec Ideal S1x1024 .f32) : FVec Ideal S256x1024 .f32 :=
  addf (matmul dot_S256x2048_S2048x1024_S256x1024_1_0_0_1_n_n none (shapeCast S256x2048 xh shapeCasts_S256x2048_S256x2048)
      (shapeCast S2048x1024 wg shapeCasts_S2048x1024_S2048x1024) (constant S256x1024 .f32 0x00000000#32))
    (broadcastTo S256x1024 (shapeCast S1x1024 bg shapeCasts_S1x1024_S1x1024) broadcasts_S1x1024_S256x1024)

theorem gateF_eq (xh : FVec Ideal S256x2048 .bf16) (wg : FVec Ideal S2048x1024 .bf16) (bg : FVec Ideal S1x1024 .f32) :
    k0_pay4 (F := Ideal) xh wg bg = logistic (preact xh wg bg) := rfl
theorem gateI_eq (xh : FVec Ideal S256x2048 .bf16) (wg : FVec Ideal S2048x1024 .bf16) (bg : FVec Ideal S1x1024 .f32) :
    k0_pay5 (F := Ideal) xh wg bg = logistic (preact xh wg bg) := rfl
theorem gateG_eq (xh : FVec Ideal S256x2048 .bf16) (wg : FVec Ideal S2048x1024 .bf16) (bg : FVec Ideal S1x1024 .f32) :
    k0_pay6 (F := Ideal) xh wg bg = tanh (preact xh wg bg) := rfl
theorem gateO_eq (xh : FVec Ideal S256x2048 .bf16) (wg : FVec Ideal S2048x1024 .bf16) (bg : FVec Ideal S1x1024 .f32) :
    k0_pay7 (F := Ideal) xh wg bg = logistic (preact xh wg bg) := rfl

/-- The contraction's coordinates: the left operand's row is the output's, its column the contracted one; the right
    operand's row is the contracted one, its column the output's. -/
theorem lhs_row (i : S256x1024.Idx) (q : dot_S256x2048_S2048x1024_S256x1024_1_0_0_1_n_n.contr.Idx) :
    (dot_S256x2048_S2048x1024_S256x1024_1_0_0_1_n_n.lhsIdx i q 0).val = (i 0).val := by
  unfold DotDims.lhsIdx
  rw [dif_neg (show ¬(0 : Fin S256x2048.rank) ∈ dot_S256x2048_S2048x1024_S256x1024_1_0_0_1_n_n.lhsBatch by decide), dif_pos (show (0 : Fin S256x2048.rank) ∈ dot_S256x2048_S2048x1024_S256x1024_1_0_0_1_n_n.lhsNonContracting by decide)]
  rfl
theorem lhs_col (i : S256x1024.Idx) (q : dot_S256x2048_S2048x1024_S256x1024_1_0_0_1_n_n.contr.Idx) :
    (dot_S256x2048_S2048x1024_S256x1024_1_0_0_1_n_n.lhsIdx i q 1).val = (q ⟨0, by decide⟩).val :=
  dot_S256x2048_S2048x1024_S256x1024_1_0_0_1_n_n.lhsIdx_val_of_single rfl i q
theorem rhs_row (i : S256x1024.Idx) (q : dot_S256x2048_S2048x1024_S256x1024_1_0_0_1_n_n.contr.Idx) :
    (dot_S256x2048_S2048x1024_S256x1024_1_0_0_1_n_n.rhsIdx i q 0).val = (q ⟨0, by decide⟩).val :=
  dot_S256x2048_S2048x1024_S256x1024_1_0_0_1_n_n.rhsIdx_val_of_single rfl i q
theorem rhs_col (i : S256x1024.Idx) (q : dot_S256x2048_S2048x1024_S256x1024_1_0_0_1_n_n.contr.Idx) :
    (dot_S256x2048_S2048x1024_S256x1024_1_0_0_1_n_n.rhsIdx i q 1).val = (i 1).val := by
  unfold DotDims.rhsIdx
  rw [dif_neg (show ¬(1 : Fin S2048x1024.rank) ∈ dot_S256x2048_S2048x1024_S256x1024_1_0_0_1_n_n.rhsBatch by decide), dif_pos (show (1 : Fin S2048x1024.rank) ∈ dot_S256x2048_S2048x1024_S256x1024_1_0_0_1_n_n.rhsNonContracting by decide)]
  rfl

/-- A gate's logit at (p, q): row `p` against the gate's column `q`, plus the gate's bias at `q`. -/
theorem preact_apply (xh : FVec Ideal S256x2048 .bf16) (wg : FVec Ideal S2048x1024 .bf16) (bg : FVec Ideal S1x1024 .f32) (p : Fin 256) (q : Fin 1024) :
    preact xh wg bg (ix2 p q) = (∑ k : Fin 2048, xh (ix2 p k) * wg (ix2 k q)) + bg (ix2 (0 : Fin 1) q) := by
  unfold preact
  rw [shapeCast_self, shapeCast_self, shapeCast_self]
  show FloatOps.matmul dot_S256x2048_S2048x1024_S256x1024_1_0_0_1_n_n none xh wg (constant S256x1024 .f32 0x00000000#32) (ix2 p q)
      + broadcastTo S256x1024 bg broadcasts_S1x1024_S256x1024 (ix2 p q) = _
  rw [broadcastTo_1b_ab_apply bg broadcasts_S1x1024_S256x1024 p q]
  refine congrArg (· + bg (ix2 (0 : Fin 1) q)) ?_
  rw [Ideal.matmul_constant_zero_apply, ← Equiv.sum_comp (contrEquiv1 dot_S256x2048_S2048x1024_S256x1024_1_0_0_1_n_n 2048 rfl rfl).symm]
  refine Finset.sum_congr rfl fun k _ => ?_
  have hk := contrEquiv1_symm_val dot_S256x2048_S2048x1024_S256x1024_1_0_0_1_n_n 2048 rfl rfl k
  have el : dot_S256x2048_S2048x1024_S256x1024_1_0_0_1_n_n.lhsIdx (ix2 p q) ((contrEquiv1 dot_S256x2048_S2048x1024_S256x1024_1_0_0_1_n_n 2048 rfl rfl).symm k) = ix2 p k := funext fun a => Fin.ext (by
    match a with
    | ⟨0, _⟩ => exact lhs_row _ _
    | ⟨1, _⟩ => exact (lhs_col _ _).trans hk)
  have er : dot_S256x2048_S2048x1024_S256x1024_1_0_0_1_n_n.rhsIdx (ix2 p q) ((contrEquiv1 dot_S256x2048_S2048x1024_S256x1024_1_0_0_1_n_n 2048 rfl rfl).symm k) = ix2 k q := funext fun a => Fin.ext (by
    match a with
    | ⟨0, _⟩ => exact (rhs_row _ _).trans hk
    | ⟨1, _⟩ => exact rhs_col _ _)
  rw [el, er]

/-- The logistic function and tanh act entry by entry. -/
theorem logistic_apply {s : Shape} {φ : FTy} (x : FVec Ideal s φ) (i : s.Idx) : logistic x i = Ideal.logistic (x i) := rfl
theorem tanh_apply {s : Shape} {φ : FTy} (x : FVec Ideal s φ) (i : s.Idx) : tanh x i = Ideal.tanh (x i) := rfl

/-- The two stored values from the gates: c' = f · c + i · g and h' = o · tanh c'. -/
theorem cellPay_eq (c0 f i g : FVec Ideal S256x1024 .f32) : k0_pay1 (F := Ideal) c0 f i g = addf (mulf f c0) (mulf i g) := rfl
theorem hiddenPay_eq (c0 f i g o : FVec Ideal S256x1024 .f32) : k0_pay2 (F := Ideal) c0 f i g o = mulf o (tanh (k0_pay1 (F := Ideal) c0 f i g)) := rfl

theorem zeros2 : (![0, 0] : Fin 2 → Nat) = fun _ => 0 := funext fun a => by fin_cases a <;> rfl

/-- A gate's columns of the weights, and its stretch of the bias row, read at an index: the fused column is the gate's
    offset plus the column. -/
theorem colsF_apply (w : Vec Ideal S2048x4096 .bf16) (k : Fin 2048) (q : Fin 1024) : View.ld w colsF (ix2 k q) = w (ix2 k (colF q)) :=
  congrArg w (funext fun a => Fin.ext (by match a with | ⟨0, _⟩ => (show 0 + 1 * k.val = k.val; omega) | ⟨1, _⟩ => (show 0 + 1 * q.val = q.val; omega)))
theorem colsI_apply (w : Vec Ideal S2048x4096 .bf16) (k : Fin 2048) (q : Fin 1024) : View.ld w colsI (ix2 k q) = w (ix2 k (colI q)) :=
  congrArg w (funext fun a => Fin.ext (by match a with | ⟨0, _⟩ => (show 0 + 1 * k.val = k.val; omega) | ⟨1, _⟩ => (show 1024 + 1 * q.val = 1024 + q.val; omega)))
theorem colsG_apply (w : Vec Ideal S2048x4096 .bf16) (k : Fin 2048) (q : Fin 1024) : View.ld w colsG (ix2 k q) = w (ix2 k (colG q)) :=
  congrArg w (funext fun a => Fin.ext (by match a with | ⟨0, _⟩ => (show 0 + 1 * k.val = k.val; omega) | ⟨1, _⟩ => (show 2048 + 1 * q.val = 2048 + q.val; omega)))
theorem colsO_apply (w : Vec Ideal S2048x4096 .bf16) (k : Fin 2048) (q : Fin 1024) : View.ld w colsO (ix2 k q) = w (ix2 k (colO q)) :=
  congrArg w (funext fun a => Fin.ext (by match a with | ⟨0, _⟩ => (show 0 + 1 * k.val = k.val; omega) | ⟨1, _⟩ => (show 3072 + 1 * q.val = 3072 + q.val; omega)))
theorem biasF_apply (b : Vec Ideal S1x4096 .f32) (q : Fin 1024) : View.ld b biasF (ix2 (0 : Fin 1) q) = b (ix2 (0 : Fin 1) (colF q)) :=
  congrArg b (funext fun a => Fin.ext (by match a with | ⟨0, _⟩ => rfl | ⟨1, _⟩ => (show 0 + 1 * q.val = q.val; omega)))
theorem biasI_apply (b : Vec Ideal S1x4096 .f32) (q : Fin 1024) : View.ld b biasI (ix2 (0 : Fin 1) q) = b (ix2 (0 : Fin 1) (colI q)) :=
  congrArg b (funext fun a => Fin.ext (by match a with | ⟨0, _⟩ => rfl | ⟨1, _⟩ => (show 1024 + 1 * q.val = 1024 + q.val; omega)))
theorem biasG_apply (b : Vec Ideal S1x4096 .f32) (q : Fin 1024) : View.ld b biasG (ix2 (0 : Fin 1) q) = b (ix2 (0 : Fin 1) (colG q)) :=
  congrArg b (funext fun a => Fin.ext (by match a with | ⟨0, _⟩ => rfl | ⟨1, _⟩ => (show 2048 + 1 * q.val = 2048 + q.val; omega)))
theorem biasO_apply (b : Vec Ideal S1x4096 .f32) (q : Fin 1024) : View.ld b biasO (ix2 (0 : Fin 1) q) = b (ix2 (0 : Fin 1) (colO q)) :=
  congrArg b (funext fun a => Fin.ext (by match a with | ⟨0, _⟩ => rfl | ⟨1, _⟩ => (show 3072 + 1 * q.val = 3072 + q.val; omega)))

/-- Row `p`'s 4096 logits on a tile, from the tile's blocks. -/
def tileLogits (xh : Vec Ideal S256x2048 .bf16) (w : Vec Ideal S2048x4096 .bf16) (b : Vec Ideal S1x4096 .f32) (p : Fin 256) : Fin 4096 → EReal :=
  fun n => dotCol xh w p n + b (ix2 (0 : Fin 1) n)

/-- Each gate's logit from the loaded pieces is the tile's logit at the gate's fused column. -/
theorem logitF (xh : Vec Ideal S256x2048 .bf16) (w : Vec Ideal S2048x4096 .bf16) (b : Vec Ideal S1x4096 .f32) (p : Fin 256) (q : Fin 1024) :
    preact (View.ld xh rowsXH) (View.ld w colsF) (View.ld b biasF) (ix2 p q) = tileLogits xh w b p (colF q) := by
  rw [preact_apply, View.ld_unit_zero (S := S256x2048) zeros2, biasF_apply]
  exact congrArg (· + _) (Finset.sum_congr rfl fun k _ => by rw [colsF_apply])
theorem logitI (xh : Vec Ideal S256x2048 .bf16) (w : Vec Ideal S2048x4096 .bf16) (b : Vec Ideal S1x4096 .f32) (p : Fin 256) (q : Fin 1024) :
    preact (View.ld xh rowsXH) (View.ld w colsI) (View.ld b biasI) (ix2 p q) = tileLogits xh w b p (colI q) := by
  rw [preact_apply, View.ld_unit_zero (S := S256x2048) zeros2, biasI_apply]
  exact congrArg (· + _) (Finset.sum_congr rfl fun k _ => by rw [colsI_apply])
theorem logitG (xh : Vec Ideal S256x2048 .bf16) (w : Vec Ideal S2048x4096 .bf16) (b : Vec Ideal S1x4096 .f32) (p : Fin 256) (q : Fin 1024) :
    preact (View.ld xh rowsXH) (View.ld w colsG) (View.ld b biasG) (ix2 p q) = tileLogits xh w b p (colG q) := by
  rw [preact_apply, View.ld_unit_zero (S := S256x2048) zeros2, biasG_apply]
  exact congrArg (· + _) (Finset.sum_congr rfl fun k _ => by rw [colsG_apply])
theorem logitO (xh : Vec Ideal S256x2048 .bf16) (w : Vec Ideal S2048x4096 .bf16) (b : Vec Ideal S1x4096 .f32) (p : Fin 256) (q : Fin 1024) :
    preact (View.ld xh rowsXH) (View.ld w colsO) (View.ld b biasO) (ix2 p q) = tileLogits xh w b p (colO q) := by
  rw [preact_apply, View.ld_unit_zero (S := S256x2048) zeros2, biasO_apply]
  exact congrArg (· + _) (Finset.sum_congr rfl fun k _ => by rw [colsO_apply])

/-- The new cell state's tile at (p, q). -/
theorem cellTile_apply (xh : Vec Ideal S256x2048 .bf16) (cp : Vec Ideal S256x1024 .f32) (w : Vec Ideal S2048x4096 .bf16) (b : Vec Ideal S1x4096 .f32)
    (p : Fin 256) (q : Fin 1024) :
    cellTile (F := Ideal) xh cp w b (ix2 p q) = cellOf (tileLogits xh w b p) (cp (ix2 p q)) q := by
  unfold cellTile
  rw [View.canon_unit_zero zeros2, cellPay_eq, gateF_eq, gateI_eq, gateG_eq, addf_apply, mulf_apply, mulf_apply,
    logistic_apply, logistic_apply, tanh_apply, logitF, logitI, logitG, View.ld_unit_zero (S := S256x1024) zeros2]
  unfold cellOf
  rfl

/-- The new hidden state's tile at (p, q). -/
theorem hiddenTile_apply (xh : Vec Ideal S256x2048 .bf16) (cp : Vec Ideal S256x1024 .f32) (w : Vec Ideal S2048x4096 .bf16) (b : Vec Ideal S1x4096 .f32)
    (p : Fin 256) (q : Fin 1024) :
    hiddenTile (F := Ideal) xh cp w b (ix2 p q) = hiddenOf (tileLogits xh w b p) (cp (ix2 p q)) q := by
  unfold hiddenTile
  rw [View.canon_unit_zero zeros2, hiddenPay_eq, cellPay_eq, gateF_eq, gateI_eq, gateG_eq, gateO_eq, mulf_apply, tanh_apply, addf_apply, mulf_apply, mulf_apply,
    logistic_apply, logistic_apply, logistic_apply, tanh_apply, logitF, logitI, logitG, logitO, View.ld_unit_zero (S := S256x1024) zeros2]
  unfold hiddenOf cellOf
  rfl

/-- A tile's row of logits is the whole array's row of logits, when the tile's blocks are the arrays' blocks: the
    256 rows are rows `r` of [x | h_prev], the weights and the bias row are the whole fused ones. -/
theorem tileLogits_eq (XH : Mat 4096 2048) (W : Mat 2048 4096) (Bv : Row 4096)
    (xh : Vec Ideal S256x2048 .bf16) (w : Vec Ideal S2048x4096 .bf16) (b : Vec Ideal S1x4096 .f32) (p : Fin 256) (r : Fin 4096)
    (hxh : ∀ k : Fin 2048, xh (ix2 p k) = XH (ix2 r k)) (hw : ∀ (k : Fin 2048) (n : Fin 4096), w (ix2 k n) = W (ix2 k n))
    (hb : ∀ n : Fin 4096, b (ix2 (0 : Fin 1) n) = Bv (ix1 n)) :
    tileLogits xh w b p = logits XH W Bv r := by
  funext n
  unfold tileLogits logits dotCol
  rw [hb]
  exact congrArg (· + Bv (ix1 n)) (Finset.sum_congr rfl fun k _ => by rw [hxh, hw])

/-- So the tile's entry (p, q) of the new cell state is the whole new cell state at the array index `i` the tile's
    (p, q) sits at, -/
theorem cell_in_array (XH : Mat 4096 2048) (W : Mat 2048 4096) (Bv : Row 4096) (Cp : Mat 4096 1024)
    (xh : Vec Ideal S256x2048 .bf16) (cp : Vec Ideal S256x1024 .f32) (w : Vec Ideal S2048x4096 .bf16) (b : Vec Ideal S1x4096 .f32)
    (p : Fin 256) (q : Fin 1024) (i : (⟨2, ![4096, 1024]⟩ : Shape).Idx) (r : Fin 4096) (hi0 : (i 0).val = r.val) (hi1 : (i 1).val = q.val)
    (hxh : ∀ k : Fin 2048, xh (ix2 p k) = XH (ix2 r k)) (hw : ∀ (k : Fin 2048) (n : Fin 4096), w (ix2 k n) = W (ix2 k n))
    (hb : ∀ n : Fin 4096, b (ix2 (0 : Fin 1) n) = Bv (ix1 n)) (hcp : cp (ix2 p q) = Cp i) :
    cellTile (F := Ideal) xh cp w b (ix2 p q) = cellArr XH W Bv Cp i := by
  rw [cellTile_apply, tileLogits_eq XH W Bv xh w b p r hxh hw hb, hcp]
  unfold cellArr
  rw [show (⟨(i 0).val, idx2_lt0 i⟩ : Fin 4096) = r from Fin.ext hi0, show (⟨(i 1).val, idx2_lt1 i⟩ : Fin 1024) = q from Fin.ext hi1]

/-- and likewise for the new hidden state. -/
theorem hidden_in_array (XH : Mat 4096 2048) (W : Mat 2048 4096) (Bv : Row 4096) (Cp : Mat 4096 1024)
    (xh : Vec Ideal S256x2048 .bf16) (cp : Vec Ideal S256x1024 .f32) (w : Vec Ideal S2048x4096 .bf16) (b : Vec Ideal S1x4096 .f32)
    (p : Fin 256) (q : Fin 1024) (i : (⟨2, ![4096, 1024]⟩ : Shape).Idx) (r : Fin 4096) (hi0 : (i 0).val = r.val) (hi1 : (i 1).val = q.val)
    (hxh : ∀ k : Fin 2048, xh (ix2 p k) = XH (ix2 r k)) (hw : ∀ (k : Fin 2048) (n : Fin 4096), w (ix2 k n) = W (ix2 k n))
    (hb : ∀ n : Fin 4096, b (ix2 (0 : Fin 1) n) = Bv (ix1 n)) (hcp : cp (ix2 p q) = Cp i) :
    hiddenTile (F := Ideal) xh cp w b (ix2 p q) = hiddenArr XH W Bv Cp i := by
  rw [hiddenTile_apply, tileLogits_eq XH W Bv xh w b p r hxh hw hb, hcp]
  unfold hiddenArr
  rw [show (⟨(i 0).val, idx2_lt0 i⟩ : Fin 4096) = r from Fin.ext hi0, show (⟨(i 1).val, idx2_lt1 i⟩ : Fin 1024) = q from Fin.ext hi1]

end Cert.KernelIdeal.Tile

end
-- ==== Proof.KernelWhole.lean ====
/-
  The cell kernel's two result arrays after its run, as whole arrays: the new hidden state and the new cell state
  of the joined inputs [x | h_prev], [W_f | W_i | W_g | W_o] and b_f ++ b_i ++ b_g ++ b_o and of the old cell state.
  Before the launch the host joins the inputs (a change of float format is the identity on extended reals, and the
  bias vector is recast as one row); row tile `t` reads rows 256·t … 256·t + 255 of [x | h_prev] and of the old cell
  state and the whole weights and bias, and writes rows 256·t … 256·t + 255 of each result; the sixteen tiles cover
  the 4096 rows.
-/
import proofs.«156035_j47596827574335_2_alg».proof.Proof.KernelTile
import Idealize.ShloMosaic.Lib.StableHlo.Run

set_option maxRecDepth 16384

noncomputable section

namespace Cert.KernelIdeal.Whole

open Cert.KernelIdeal Cert.KernelIdeal.Gen Cert.KernelIdeal.Region Cert.KernelIdeal.Tile Cert.CellSpec
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The joined inputs -/

/-- [x | h_prev], [W_f | W_i | W_g | W_o] and b_f ++ b_i ++ b_g ++ b_o of the arguments as the program was started. -/
abbrev joinXH (c : Dev nD) : FVec Ideal S4096x2048 .f32 :=
  concatenate S4096x2048 1 [⟨S4096x1024, m ((c.tc : Thread nD τ).loc main_arg0)⟩, ⟨S4096x1024, m ((c.tc : Thread nD τ).loc main_arg1)⟩] concatenates_S4096x1024_S4096x1024_S4096x2048_d1
abbrev joinW (c : Dev nD) : FVec Ideal S2048x4096 .f32 :=
  concatenate S2048x4096 1 [⟨S2048x1024, m ((c.tc : Thread nD τ).loc main_arg3)⟩, ⟨S2048x1024, m ((c.tc : Thread nD τ).loc main_arg5)⟩, ⟨S2048x1024, m ((c.tc : Thread nD τ).loc main_arg7)⟩, ⟨S2048x1024, m ((c.tc : Thread nD τ).loc main_arg9)⟩] concatenates_S2048x1024_S2048x1024_S2048x1024_S2048x1024_S2048x4096_d1
abbrev joinB (c : Dev nD) : FVec Ideal S4096 .f32 :=
  concatenate S4096 0 [⟨S1024, m ((c.tc : Thread nD τ).loc main_arg4)⟩, ⟨S1024, m ((c.tc : Thread nD τ).loc main_arg6)⟩, ⟨S1024, m ((c.tc : Thread nD τ).loc main_arg8)⟩, ⟨S1024, m ((c.tc : Thread nD τ).loc main_arg10)⟩] concatenates_S1024_S1024_S1024_S1024_S4096_d0

/-- What the launch finds in the three staged arrays the host wrote. -/
theorem entry_xh (c : Dev nD) : (entry m c main_v1 : S4096x2048.Idx → EReal) = joinXH m c := by
  show StableHlo.after hostOps0 (fun b => m (c, b)) (Proc.devRef .tc main_v1) = _
  after_results
  rfl
theorem entry_w (c : Dev nD) : (entry m c main_v3 : S2048x4096.Idx → EReal) = joinW m c := by
  show StableHlo.after hostOps0 (fun b => m (c, b)) (Proc.devRef .tc main_v3) = _
  after_results
  rfl
theorem entry_b (c : Dev nD) : (entry m c main_v5 : S1x4096.Idx → EReal) = shapeCast S1x4096 (joinB m c) shapeCasts_S4096_S1x4096 := by
  show StableHlo.after hostOps0 (fun b => m (c, b)) (Proc.devRef .tc main_v5) = _
  after_results
  rfl

/-! ## The windows' blocks at a row tile -/

/-- Each window's block index at row tile `t`: the four row-tiled windows sit at block row `t`, the two resident ones at block 0. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row `p` of tile `t` is row 256·t + p of the arrays. -/
def rowOf (t : Fin cfg0.N) (p : Fin 256) : Fin 4096 := ⟨t.val * 256 + p.val, by have := Nat.lt_of_lt_of_eq t.isLt N_0; omega⟩

theorem block_xh (c : Dev nD) (t : Fin cfg0.N) (p : Fin 256) (k : Fin 2048) :
    blockAt m c 0 t (ix2 p k) = joinXH m c (ix2 (rowOf t p) k) := by
  obtain ⟨e00, e01, -⟩ := block_indices t
  show entry m c main_v1 (((cfg0.win 0).blk t).view.emb (ix2 p k)) = _
  rw [entry_xh]
  refine congrArg (joinXH m c) (funext fun a => Fin.ext ?_)
  match a with
  | ⟨0, _⟩ => show win0_0.index t (0 : Fin 2) * 256 + 1 * p.val = t.val * 256 + p.val; rw [e00]; omega
  | ⟨1, _⟩ => show win0_0.index t (1 : Fin 2) * 2048 + 1 * k.val = k.val; rw [e01]; omega

theorem block_w (c : Dev nD) (t : Fin cfg0.N) (k : Fin 2048) (n : Fin 4096) :
    blockAt m c 2 t (ix2 k n) = joinW m c (ix2 k n) := by
  obtain ⟨-, -, -, -, e20, e21, -⟩ := block_indices t
  show entry m c main_v3 (((cfg0.win 2).blk t).view.emb (ix2 k n)) = _
  rw [entry_w]
  refine congrArg (joinW m c) (funext fun a => Fin.ext ?_)
  match a with
  | ⟨0, _⟩ => show win0_2.index t (0 : Fin 2) * 2048 + 1 * k.val = k.val; rw [e20]; omega
  | ⟨1, _⟩ => show win0_2.index t (1 : Fin 2) * 4096 + 1 * n.val = n.val; rw [e21]; omega

theorem block_b (c : Dev nD) (t : Fin cfg0.N) (n : Fin 4096) :
    blockAt m c 3 t (ix2 (0 : Fin 1) n) = joinB m c (ix1 n) := by
  obtain ⟨-, -, -, -, -, -, e30, e31, -⟩ := block_indices t
  show entry m c main_v5 (((cfg0.win 3).blk t).view.emb (ix2 (0 : Fin 1) n)) = _
  rw [entry_b, ← shapeCast_a_1a_apply (joinB m c) shapeCasts_S4096_S1x4096 (0 : Fin 1) n]
  refine congrArg (shapeCast S1x4096 (joinB m c) shapeCasts_S4096_S1x4096) (funext fun a => Fin.ext ?_)
  match a with
  | ⟨0, _⟩ => show win0_3.index t (0 : Fin 2) * 1 + 1 * 0 = 0; rw [e30]
  | ⟨1, _⟩ => show win0_3.index t (1 : Fin 2) * 4096 + 1 * n.val = n.val; rw [e31]; omega

/-! ## What each tile writes back -/

/-- What row tile `t` writes back to the new hidden state is block `t` of the whole new hidden state. -/
theorem flushed_hidden (c : Dev nD) (t : Fin cfg0.N) :
    (dats m 0 c).flushed 4 t = ((cfg0.win 4).blk t).view.read (Elt Ideal) (hiddenArr (joinXH m c) (joinW m c) (joinB m c) (m ((c.tc : Thread nD τ).loc main_arg2))) := by
  show (cfg0.win 4).cut (grid0.coords t) ((dats m 0 c).after 4 t) = _
  rw [after4]
  funext j
  obtain ⟨p, q, rfl⟩ : ∃ (p : Fin 256) (q : Fin 1024), j = ix2 p q := ⟨j 0, j 1, eq_ix2 j⟩
  obtain ⟨e00, e01, e10, e11, e20, e21, e30, e31, e40, e41, e50, e51⟩ := block_indices t
  refine hidden_in_array (joinXH m c) (joinW m c) (joinB m c) (m ((c.tc : Thread nD τ).loc main_arg2)) (blockAt m c 0 t) (blockAt m c 1 t) (blockAt m c 2 t) (blockAt m c 3 t) p q _ (rowOf t p) ?_ ?_
    (fun k => block_xh m c t p k) (fun k n => block_w m c t k n) (fun n => block_b m c t n) ?_
  · show win0_4.index t (0 : Fin 2) * 256 + 1 * p.val = t.val * 256 + p.val
    rw [e40]; omega
  · show win0_4.index t (1 : Fin 2) * 1024 + 1 * q.val = q.val
    rw [e41]; omega
  · show entry m c main_arg2 (((cfg0.win 1).blk t).view.emb (ix2 p q)) = m ((c.tc : Thread nD τ).loc main_arg2) (((cfg0.win 4).blk t).view.emb (ix2 p q))
    rw [entry_main_arg2]
    refine congrArg (m ((c.tc : Thread nD τ).loc main_arg2)) (funext fun a => Fin.ext ?_)
    match a with
    | ⟨0, _⟩ => show win0_1.index t (0 : Fin 2) * 256 + 1 * p.val = win0_4.index t (0 : Fin 2) * 256 + 1 * p.val; rw [e10, e40]
    | ⟨1, _⟩ => show win0_1.index t (1 : Fin 2) * 1024 + 1 * q.val = win0_4.index t (1 : Fin 2) * 1024 + 1 * q.val; rw [e11, e41]

/-- What row tile `t` writes back to the new cell state is block `t` of the whole new cell state. -/
theorem flushed_cell (c : Dev nD) (t : Fin cfg0.N) :
    (dats m 0 c).flushed 5 t = ((cfg0.win 5).blk t).view.read (Elt Ideal) (cellArr (joinXH m c) (joinW m c) (joinB m c) (m ((c.tc : Thread nD τ).loc main_arg2))) := by
  show (cfg0.win 5).cut (grid0.coords t) ((dats m 0 c).after 5 t) = _
  rw [after5]
  funext j
  obtain ⟨p, q, rfl⟩ : ∃ (p : Fin 256) (q : Fin 1024), j = ix2 p q := ⟨j 0, j 1, eq_ix2 j⟩
  obtain ⟨e00, e01, e10, e11, e20, e21, e30, e31, e40, e41, e50, e51⟩ := block_indices t
  refine cell_in_array (joinXH m c) (joinW m c) (joinB m c) (m ((c.tc : Thread nD τ).loc main_arg2)) (blockAt m c 0 t) (blockAt m c 1 t) (blockAt m c 2 t) (blockAt m c 3 t) p q _ (rowOf t p) ?_ ?_
    (fun k => block_xh m c t p k) (fun k n => block_w m c t k n) (fun n => block_b m c t n) ?_
  · show win0_5.index t (0 : Fin 2) * 256 + 1 * p.val = t.val * 256 + p.val
    rw [e50]; omega
  · show win0_5.index t (1 : Fin 2) * 1024 + 1 * q.val = q.val
    rw [e51]; omega
  · show entry m c main_arg2 (((cfg0.win 1).blk t).view.emb (ix2 p q)) = m ((c.tc : Thread nD τ).loc main_arg2) (((cfg0.win 5).blk t).view.emb (ix2 p q))
    rw [entry_main_arg2]
    refine congrArg (m ((c.tc : Thread nD τ).loc main_arg2)) (funext fun a => Fin.ext ?_)
    match a with
    | ⟨0, _⟩ => show win0_1.index t (0 : Fin 2) * 256 + 1 * p.val = win0_5.index t (0 : Fin 2) * 256 + 1 * p.val; rw [e10, e50]
    | ⟨1, _⟩ => show win0_1.index t (1 : Fin 2) * 1024 + 1 * q.val = win0_5.index t (1 : Fin 2) * 1024 + 1 * q.val; rw [e11, e51]

/-! ## The sixteen tiles cover each result -/

/-- An index is in tile `t`'s block iff each coordinate is in the block's range. -/
theorem mem_tile4 (t : Fin cfg0.N) (i : S4096x1024.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v6_0).slice (win0_4.rect t)).set ↔ _
  rw [View.set_slice_whole, Rect.mem_set_unit]
  exact Iff.rfl

/-- Every index of the array lies in the tile of its row's 256-row band. -/
theorem covered4 (i : S4096x1024.Idx) : ∃ t : Fin cfg0.N, (cfg0.win 4).flush t = true ∧ i ∈ ((cfg0.win 4).blk t).view.set := by
  have hi0 : (i 0).val < 4096 := (i 0).isLt
  have hi1 : (i 1).val < 1024 := (i 1).isLt
  refine ⟨⟨(i 0).val / 256, by show (i 0).val / 256 < grid0.N; rw [N_0]; omega⟩, flush0_4 _, ?_⟩
  rw [mem_tile4]
  obtain ⟨e00, e01, e10, e11, e20, e21, e30, e31, e40, e41, e50, e51⟩ := block_indices ⟨(i 0).val / 256, by show (i 0).val / 256 < grid0.N; rw [N_0]; omega⟩
  intro a
  match a with
  | ⟨0, _⟩ => show win0_4.index _ (0 : Fin 2) * 256 ≤ (i 0).val ∧ (i 0).val < win0_4.index _ (0 : Fin 2) * 256 + 256; rw [e40]; show (i 0).val / 256 * 256 ≤ (i 0).val ∧ (i 0).val < (i 0).val / 256 * 256 + 256; omega
  | ⟨1, _⟩ => show win0_4.index _ (1 : Fin 2) * 1024 ≤ (i 1).val ∧ (i 1).val < win0_4.index _ (1 : Fin 2) * 1024 + 1024; rw [e41]; omega

theorem mem_tile5 (t : Fin cfg0.N) (i : S4096x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v6_1).slice (win0_5.rect t)).set ↔ _
  rw [View.set_slice_whole, Rect.mem_set_unit]
  exact Iff.rfl

/-- Every index of the array lies in the tile of its row's 256-row band. -/
theorem covered5 (i : S4096x1024.Idx) : ∃ t : Fin cfg0.N, (cfg0.win 5).flush t = true ∧ i ∈ ((cfg0.win 5).blk t).view.set := by
  have hi0 : (i 0).val < 4096 := (i 0).isLt
  have hi1 : (i 1).val < 1024 := (i 1).isLt
  refine ⟨⟨(i 0).val / 256, by show (i 0).val / 256 < grid0.N; rw [N_0]; omega⟩, flush0_5 _, ?_⟩
  rw [mem_tile5]
  obtain ⟨e00, e01, e10, e11, e20, e21, e30, e31, e40, e41, e50, e51⟩ := block_indices ⟨(i 0).val / 256, by show (i 0).val / 256 < grid0.N; rw [N_0]; omega⟩
  intro a
  match a with
  | ⟨0, _⟩ => show win0_5.index _ (0 : Fin 2) * 256 ≤ (i 0).val ∧ (i 0).val < win0_5.index _ (0 : Fin 2) * 256 + 256; rw [e50]; show (i 0).val / 256 * 256 ≤ (i 0).val ∧ (i 0).val < (i 0).val / 256 * 256 + 256; omega
  | ⟨1, _⟩ => show win0_5.index _ (1 : Fin 2) * 1024 ≤ (i 1).val ∧ (i 1).val < win0_5.index _ (1 : Fin 2) * 1024 + 1024; rw [e51]; omega

/-! ## The results -/

theorem final_hidden (c : Dev nD) : (dats m 0 c).arrAt 4 cfg0.N = hiddenArr (joinXH m c) (joinW m c) (joinB m c) (m ((c.tc : Thread nD τ).loc main_arg2)) :=
  (dats m 0 c).arrAt_eq_of_cover 4 _ (fun t _ => flushed_hidden m c t) covered4
theorem final_cell (c : Dev nD) : (dats m 0 c).arrAt 5 cfg0.N = cellArr (joinXH m c) (joinW m c) (joinB m c) (m ((c.tc : Thread nD τ).loc main_arg2)) :=
  (dats m 0 c).arrAt_eq_of_cover 5 _ (fun t _ => flushed_cell m c t) covered5

/-- Every weakly fair execution of the kernel's program ends with its first result the new hidden state, its second
    the new cell state, and its eleven arguments unchanged. -/
theorem run : θ_run defs (onTc (τ := τ) (main (F := Ideal))) ⟨m, fun _ => 0, ρ⟩ fun r => ∀ c : Dev nD,
      r.2.mem ((c.tc : Thread nD τ).loc main_v6_0) = hiddenArr (joinXH m c) (joinW m c) (joinB m c) (m ((c.tc : Thread nD τ).loc main_arg2))
      ∧ r.2.mem ((c.tc : Thread nD τ).loc main_v6_1) = cellArr (joinXH m c) (joinW m c) (joinB m c) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 4).trans (final_hidden m c), ((h c).1 5).trans (final_cell m c),
      ((h c).2 main_arg0 (Pipeline.mem_restRefs_of main_arg0 (by decide) (by decide))).trans (entry_main_arg0 m c),
      ((h c).2 main_arg1 (Pipeline.mem_restRefs_of main_arg1 (by decide) (by decide))).trans (entry_main_arg1 m c),
      ((h c).1 1).trans (((dats m 0 c).arrAt_in 1 rfl _).trans ((arrays_eq m c 1).trans (entry_main_arg2 m c))),
      ((h c).2 main_arg3 (Pipeline.mem_restRefs_of main_arg3 (by decide) (by decide))).trans (entry_main_arg3 m c),
      ((h c).2 main_arg4 (Pipeline.mem_restRefs_of main_arg4 (by decide) (by decide))).trans (entry_main_arg4 m c),
      ((h c).2 main_arg5 (Pipeline.mem_restRefs_of main_arg5 (by decide) (by decide))).trans (entry_main_arg5 m c),
      ((h c).2 main_arg6 (Pipeline.mem_restRefs_of main_arg6 (by decide) (by decide))).trans (entry_main_arg6 m c),
      ((h c).2 main_arg7 (Pipeline.mem_restRefs_of main_arg7 (by decide) (by decide))).trans (entry_main_arg7 m c),
      ((h c).2 main_arg8 (Pipeline.mem_restRefs_of main_arg8 (by decide) (by decide))).trans (entry_main_arg8 m c),
      ((h c).2 main_arg9 (Pipeline.mem_restRefs_of main_arg9 (by decide) (by decide))).trans (entry_main_arg9 m c),
      ((h c).2 main_arg10 (Pipeline.mem_restRefs_of main_arg10 (by decide) (by decide))).trans (entry_main_arg10 m c)⟩)
    (run_launch m ρ)

end Cert.KernelIdeal.Whole

end
-- ==== Proof.RefCell.lean ====
/-
  The reference program read as the cell's two formulas. Its fused product of [x | h_prev] with the fused weights,
  plus the fused bias broadcast down the rows, gives every row's 4096 logits; the four column slices are the four
  gates' logits; the host's quotient 1 / (1 + e^(-z)) is the logistic function; and the two results are the new cell
  state and the new hidden state of those logits and the old cell state.
-/
import proofs.«156035_j47596827574335_2_alg».proof.Proof.Gen.ReferenceIdeal.Read
import proofs.«156035_j47596827574335_2_alg».proof.Proof.CellSpec

noncomputable section

namespace Cert.ReferenceIdeal.Cell

open Cert.ReferenceIdeal Cert.ReferenceIdeal.Read Cert.CellSpec
open Idealize.ShloMosaic Idealize.ShloMosaic.ValueIdx

/-- The float word of 1.0 denotes the real number one. -/
theorem one_f32 : Ideal.ofBits .f32 0x3F800000#32 = 1 := by
  simp [Ideal.ofBits, Ideal.ieee, -EReal.coe_mul]; norm_num

/-- The host's spelling of the logistic function, 1 / (1 + e^(-z)) with both ones the float word of 1.0. -/
theorem sigmoid_host (z : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf z))) = Ideal.logistic z := by
  show Ideal.div (Ideal.ofBits .f32 0x3F800000#32) (Ideal.ofBits .f32 0x3F800000#32 + Ideal.exp (-z)) = Ideal.div 1 (1 + Ideal.exp (-z))
  rw [one_f32]

variable (x0 x1 x2 : (⟨S4096x1024, .f32⟩ : BufTy).Contents (Elt Ideal)) (x3 x5 x7 x9 : (⟨S2048x1024, .f32⟩ : BufTy).Contents (Elt Ideal))
  (x4 x6 x8 x10 : (⟨S1024, .f32⟩ : BufTy).Contents (Elt Ideal))

/-- The fused product plus the broadcast bias, at (r, n): row `r`'s logit at fused column `n`. -/
theorem fused_apply (i : S4096x4096.Idx) :
    val_main_v6 (F := Ideal) x0 x1 x3 x4 x5 x6 x7 x8 x9 x10 i = logits (val_main_v0 (F := Ideal) x0 x1) (val_main_v1 (F := Ideal) x3 x5 x7 x9) (val_main_v2 (F := Ideal) x4 x6 x8 x10) ⟨(i 0).val, idx2_lt0 i⟩ ⟨(i 1).val, idx2_lt1 i⟩ := by
  rw [val_main_v6_apply, val_main_v3_apply, val_main_v5_apply, val_main_v4_apply]
  generalize val_main_v0 (F := Ideal) x0 x1 = XH
  generalize val_main_v1 (F := Ideal) x3 x5 x7 x9 = W
  generalize val_main_v2 (F := Ideal) x4 x6 x8 x10 = Bv
  show (∑ k : Fin 2048, XH (lidx_main_v3 i k) * W (ridx_main_v3 i k)) + Bv (idx_main_v4 (idx_main_v5 i)) = _
  unfold logits dotCol
  refine congrArg₂ (· + ·) (Finset.sum_congr rfl fun k _ => congrArg₂ (· * ·) (congrArg XH ?_) (congrArg W ?_)) (congrArg Bv ?_)
  · funext a; match a with | ⟨0, _⟩ => rfl | ⟨1, _⟩ => rfl
  · funext a; match a with | ⟨0, _⟩ => rfl | ⟨1, _⟩ => rfl
  · funext a; match a with | ⟨0, _⟩ => rfl

/-- The four column slices are the four gates' logits. -/
theorem sliceF (i : S4096x1024.Idx) :
    val_main_v7 (F := Ideal) x0 x1 x3 x4 x5 x6 x7 x8 x9 x10 i = (logits (val_main_v0 (F := Ideal) x0 x1) (val_main_v1 (F := Ideal) x3 x5 x7 x9) (val_main_v2 (F := Ideal) x4 x6 x8 x10) ⟨(i 0).val, idx2_lt0 i⟩) (colF ⟨(i 1).val, idx2_lt1 i⟩) := by
  rw [val_main_v7_apply, fused_apply]
theorem sliceI (i : S4096x1024.Idx) :
    val_main_v8 (F := Ideal) x0 x1 x3 x4 x5 x6 x7 x8 x9 x10 i = (logits (val_main_v0 (F := Ideal) x0 x1) (val_main_v1 (F := Ideal) x3 x5 x7 x9) (val_main_v2 (F := Ideal) x4 x6 x8 x10) ⟨(i 0).val, idx2_lt0 i⟩) (colI ⟨(i 1).val, idx2_lt1 i⟩) := by
  rw [val_main_v8_apply, fused_apply]
theorem sliceG (i : S4096x1024.Idx) :
    val_main_v9 (F := Ideal) x0 x1 x3 x4 x5 x6 x7 x8 x9 x10 i = (logits (val_main_v0 (F := Ideal) x0 x1) (val_main_v1 (F := Ideal) x3 x5 x7 x9) (val_main_v2 (F := Ideal) x4 x6 x8 x10) ⟨(i 0).val, idx2_lt0 i⟩) (colG ⟨(i 1).val, idx2_lt1 i⟩) := by
  rw [val_main_v9_apply, fused_apply]
theorem sliceO (i : S4096x1024.Idx) :
    val_main_v10 (F := Ideal) x0 x1 x3 x4 x5 x6 x7 x8 x9 x10 i = (logits (val_main_v0 (F := Ideal) x0 x1) (val_main_v1 (F := Ideal) x3 x5 x7 x9) (val_main_v2 (F := Ideal) x4 x6 x8 x10) ⟨(i 0).val, idx2_lt0 i⟩) (colO ⟨(i 1).val, idx2_lt1 i⟩) := by
  rw [val_main_v10_apply, fused_apply]

/-- The three sigmoid gates and the tanh gate. -/
theorem gateF (i : S4096x1024.Idx) :
    val_main_v16 (F := Ideal) x0 x1 x3 x4 x5 x6 x7 x8 x9 x10 i = Ideal.logistic ((logits (val_main_v0 (F := Ideal) x0 x1) (val_main_v1 (F := Ideal) x3 x5 x7 x9) (val_main_v2 (F := Ideal) x4 x6 x8 x10) ⟨(i 0).val, idx2_lt0 i⟩) (colF ⟨(i 1).val, idx2_lt1 i⟩)) := by
  rw [val_main_v16_apply, val_main_v15_apply, val_main_cst_0_apply, val_main_v14_apply, val_main_v13_apply, val_main_cst_apply,
    val_main_v12_apply, val_main_v11_apply, sliceF]
  exact sigmoid_host _
theorem gateI (i : S4096x1024.Idx) :
    val_main_v22 (F := Ideal) x0 x1 x3 x4 x5 x6 x7 x8 x9 x10 i = Ideal.logistic ((logits (val_main_v0 (F := Ideal) x0 x1) (val_main_v1 (F := Ideal) x3 x5 x7 x9) (val_main_v2 (F := Ideal) x4 x6 x8 x10) ⟨(i 0).val, idx2_lt0 i⟩) (colI ⟨(i 1).val, idx2_lt1 i⟩)) := by
  rw [val_main_v22_apply, val_main_v21_apply, val_main_cst_2_apply, val_main_v20_apply, val_main_v19_apply, val_main_cst_1_apply,
    val_main_v18_apply, val_main_v17_apply, sliceI]
  exact sigmoid_host _
theorem gateO (i : S4096x1024.Idx) :
    val_main_v29 (F := Ideal) x0 x1 x3 x4 x5 x6 x7 x8 x9 x10 i = Ideal.logistic ((logits (val_main_v0 (F := Ideal) x0 x1) (val_main_v1 (F := Ideal) x3 x5 x7 x9) (val_main_v2 (F := Ideal) x4 x6 x8 x10) ⟨(i 0).val, idx2_lt0 i⟩) (colO ⟨(i 1).val, idx2_lt1 i⟩)) := by
  rw [val_main_v29_apply, val_main_v28_apply, val_main_cst_4_apply, val_main_v27_apply, val_main_v26_apply, val_main_cst_3_apply,
    val_main_v25_apply, val_main_v24_apply, sliceO]
  exact sigmoid_host _
theorem gateG (i : S4096x1024.Idx) :
    val_main_v23 (F := Ideal) x0 x1 x3 x4 x5 x6 x7 x8 x9 x10 i = Ideal.tanh ((logits (val_main_v0 (F := Ideal) x0 x1) (val_main_v1 (F := Ideal) x3 x5 x7 x9) (val_main_v2 (F := Ideal) x4 x6 x8 x10) ⟨(i 0).val, idx2_lt0 i⟩) (colG ⟨(i 1).val, idx2_lt1 i⟩)) := by
  rw [val_main_v23_apply, sliceG]
  rfl

/-- The reference's second result is the new cell state, -/
theorem cell_eq : val_main_v32 (F := Ideal) x0 x1 x2 x3 x4 x5 x6 x7 x8 x9 x10 = cellArr (val_main_v0 (F := Ideal) x0 x1) (val_main_v1 (F := Ideal) x3 x5 x7 x9) (val_main_v2 (F := Ideal) x4 x6 x8 x10) x2 := by
  funext i
  rw [val_main_v32_apply, val_main_v30_apply, val_main_v31_apply, gateF, gateI, gateG]
  rfl

/-- and its first the new hidden state. -/
theorem hidden_eq : val_main_v34 (F := Ideal) x0 x1 x2 x3 x4 x5 x6 x7 x8 x9 x10 = hiddenArr (val_main_v0 (F := Ideal) x0 x1) (val_main_v1 (F := Ideal) x3 x5 x7 x9) (val_main_v2 (F := Ideal) x4 x6 x8 x10) x2 := by
  funext i
  rw [val_main_v34_apply, val_main_v33_apply, val_main_v32_apply, val_main_v30_apply, val_main_v31_apply, gateF, gateI, gateG, gateO]
  rfl

end Cert.ReferenceIdeal.Cell

end
-- ==== Proof.lean ====
/-
  The certificate of the LSTM cell kernel against its reference.

  Frames: the kernel's program, read at the word level and at the extended reals, is six host lines (joins of the
  inputs, changes of float format, a reshape) and one launch over sixteen row tiles whose body only reads its four
  input blocks and overwrites its two output tiles, so it ends, faults nowhere and leaves its arguments as they were;
  the reference is a straight line of host operations. The idealization rewrote nothing, so there is nothing to
  preserve. Values: at the extended reals both programs end with the new hidden state and the new cell state of one
  LSTM step — the kernel computing each gate's 1024 columns by its own product against a column slice of the fused
  weights, the reference computing one fused product and slicing it; a sum over the contracted axis is the same sum
  either way, the kernel's logistic is the reference's 1 / (1 + e^(-z)), and no law that needs finite operands is used.
-/
import proofs.«156035_j47596827574335_2_alg».proof.Defs
import proofs.«156035_j47596827574335_2_alg».proof.Proof.KernelRegion
import proofs.«156035_j47596827574335_2_alg».proof.Proof.KernelWhole
import proofs.«156035_j47596827574335_2_alg».proof.Proof.RefCell
import proofs.«156035_j47596827574335_2_alg».proof.Proof.Gen.Kernel
import proofs.«156035_j47596827574335_2_alg».proof.Proof.Gen.KernelIdeal
import proofs.«156035_j47596827574335_2_alg».proof.Proof.Gen.ReferenceIdeal
import proofs.«156035_j47596827574335_2_alg».proof.Proof.Gen.ReferenceIdeal.Run
import proofs.«156035_j47596827574335_2_alg».proof.Proof.Gen.ReferenceIdeal.Read
import proofs.«156035_j47596827574335_2_alg».proof.Proof.Gen.Pre_finite_inputs
import Idealize.ShloMosaic.Adequacy
import Idealize.ShloMosaic.Init

noncomputable section

namespace Cert.Proof

open Idealize.ShloMosaic Idealize.SL.Sem

theorem frame_kernel : Cert.frame_Kernel := fun m ρ _ => Cert.Kernel.Region.frame m ρ
theorem frame_kernelIdeal : Cert.frame_KernelIdeal := fun m ρ _ => Cert.KernelIdeal.Region.frame m ρ
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the cell's two results of arguments that agree. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v34_eq, Cert.ReferenceIdeal.Cell.hidden_eq]
    obtain ⟨h0, h1, h2, h3, h4, h5, h6, h7, h8, h9, h10⟩ := hagree c
    rw [h0, h1, h2, h3, h4, h5, h6, h7, h8, h9, h10]
    rfl
  · rw [Cert.ReferenceIdeal.Read.val_main_v32_eq, Cert.ReferenceIdeal.Cell.cell_eq]
    obtain ⟨h0, h1, h2, h3, h4, h5, h6, h7, h8, h9, h10⟩ := hagree c
    rw [h0, h1, h2, h3, h4, h5, h6, h7, h8, h9, h10]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
